-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x128 : Shape := ⟨4, ![4, 16, 1024, 128]⟩
abbrev S4x1x1024x1024 : Shape := ⟨4, ![4, 1, 1024, 1024]⟩
abbrev S_ : Shape := ⟨0, ![]⟩

class Facts : Prop where
  bcast_S_S4x16x1024x128 : S_.BroadcastsInDim S4x16x1024x128 (![] : Fin 0 → Fin S4x16x1024x128.rank)
  reducesTo_S4x16x1024x128_S_d0_1_2_3 : S4x16x1024x128.ReducesTo [0, 1, 2, 3] S_
  h_S_ : 0 < S_.numel

variable [Facts]

def fn {F : FTy → Type} [FloatOps F] (main_arg0 : FVec F S4x16x1024x128 .f32) (main_arg1 : FVec F S4x16x1024x128 .f32) (main_arg2 : FVec F S4x16x1024x128 .f32) (main_arg3 : IVec S4x1x1024x1024 32) : IVec S_ 1 :=
  let main_v0 : FVec F S4x16x1024x128 .f32 := Host.absf main_arg0
  let main_cst : FVec F S_ .f32 := constant S_ .f32 0x7F800000#32
  let main_v1 : FVec F S4x16x1024x128 .f32 := broadcastInDim S4x16x1024x128 ![] bcast_S_S4x16x1024x128 main_cst
  let main_v2 : IVec S4x16x1024x128 1 := cmpf .olt main_v0 main_v1
  let main_c : IVec S_ 1 := constantI S_ 1 1#1
  let main_v3 : IVec S_ 1 := (fun x v => Host.reduce IntOp.andi x v reducesTo_S4x16x1024x128_S_d0_1_2_3 h_S_) main_v2 main_c
  let main_v4 : FVec F S4x16x1024x128 .f32 := Host.absf main_arg1
  let main_cst_0 : FVec F S_ .f32 := constant S_ .f32 0x7F800000#32
  let main_v5 : FVec F S4x16x1024x128 .f32 := broadcastInDim S4x16x1024x128 ![] bcast_S_S4x16x1024x128 main_cst_0
  let main_v6 : IVec S4x16x1024x128 1 := cmpf .olt main_v4 main_v5
  let main_c_1 : IVec S_ 1 := constantI S_ 1 1#1
  let main_v7 : IVec S_ 1 := (fun x v => Host.reduce IntOp.andi x v reducesTo_S4x16x1024x128_S_d0_1_2_3 h_S_) main_v6 main_c_1
  let main_v8 : IVec S_ 1 := andi main_v3 main_v7
  let main_v9 : FVec F S4x16x1024x128 .f32 := Host.absf main_arg2
  let main_cst_2 : FVec F S_ .f32 := constant S_ .f32 0x7F800000#32
  let main_v10 : FVec F S4x16x1024x128 .f32 := broadcastInDim S4x16x1024x128 ![] bcast_S_S4x16x1024x128 main_cst_2
  let main_v11 : IVec S4x16x1024x128 1 := cmpf .olt main_v9 main_v10
  let main_c_3 : IVec S_ 1 := constantI S_ 1 1#1
  let main_v12 : IVec S_ 1 := (fun x v => Host.reduce IntOp.andi x v reducesTo_S4x16x1024x128_S_d0_1_2_3 h_S_) main_v11 main_c_3
  let main_v13 : IVec S_ 1 := andi main_v8 main_v12
  main_v13
-- ==== Kernel.lean ====
abbrev S4x16x1024x128 : Shape := ⟨4, ![4, 16, 1024, 128]⟩
abbrev S4x1x1024x1024 : Shape := ⟨4, ![4, 1, 1024, 1024]⟩
abbrev S64x1024x128 : Shape := ⟨3, ![64, 1024, 128]⟩
abbrev S4x1024x1024 : Shape := ⟨3, ![4, 1024, 1024]⟩
abbrev S64x1024x1024 : Shape := ⟨3, ![64, 1024, 1024]⟩
abbrev S1x512x128 : Shape := ⟨3, ![1, 512, 128]⟩
abbrev S1x512x512 : Shape := ⟨3, ![1, 512, 512]⟩
abbrev S512x128 : Shape := ⟨2, ![512, 128]⟩
abbrev S512x512 : Shape := ⟨2, ![512, 512]⟩
abbrev S4x16x1024x1024 : Shape := ⟨4, ![4, 16, 1024, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4x16x1024x128, .f32⟩
  | .hbm, ⟨1, _⟩ => ⟨S4x16x1024x128, .f32⟩
  | .hbm, ⟨2, _⟩ => ⟨S4x16x1024x128, .f32⟩
  | .hbm, ⟨3, _⟩ => ⟨S4x1x1024x1024, .i32⟩
  | .hbm, ⟨4, _⟩ => ⟨S64x1024x128, .f32⟩
  | .hbm, ⟨5, _⟩ => ⟨S64x1024x128, .f32⟩
  | .hbm, ⟨6, _⟩ => ⟨S64x1024x128, .f32⟩
  | .hbm, ⟨7, _⟩ => ⟨S4x1024x1024, .i32⟩
  | .hbm, ⟨8, _⟩ => ⟨S64x1024x1024, .f32⟩
  | .hbm, ⟨9, _⟩ => ⟨S64x1024x128, .f32⟩
  | .hbm, ⟨10, _⟩ => ⟨S4x16x1024x128, .f32⟩
  | .hbm, ⟨11, _⟩ => ⟨S4x16x1024x1024, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x512, .i32⟩
  | .local _ .vmem, ⟨7, _⟩ => ⟨S1x512x512, .i32⟩
  | .local _ .vmem, ⟨8, _⟩ => ⟨S1x512x512, .f32⟩
  | .local _ .vmem, ⟨9, _⟩ => ⟨S1x512x512, .f32⟩
  | .local _ .vmem, ⟨10, _⟩ => ⟨S1x512x128, .f32⟩
  | .local _ .vmem, ⟨11, _⟩ => ⟨S1x512x128, .f32⟩
  | .local _ .vmem, ⟨12, _⟩ => ⟨S512x128, .f32⟩
  | _, _ => ⟨S4x16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![64, 2, 2], ![false, false, false]⟩

def k0_cond2 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_25 : BitVec 32 := 0#32
  let v37 : BitVec 1 := Scalar.cmpi .ne v36 c0_i32_25
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x16x1024x128_S64x1024x128 : S4x16x1024x128.ShapeCasts S64x1024x128
  shapeCasts_S4x1x1024x1024_S4x1024x1024 : S4x1x1024x1024.ShapeCasts S4x1024x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S512x128_S1x512x128 : S512x128.ShapeCasts S1x512x128
  shapeCasts_S64x1024x128_S4x16x1024x128 : S64x1024x128.ShapeCasts S4x16x1024x128
  shapeCasts_S64x1024x1024_S4x16x1024x1024 : S64x1024x1024.ShapeCasts S4x16x1024x1024
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S64x1024x128.size a
  hwx0_0 : ∀ i : grid0.Coords, EltTy.bits .f32 = 32 ∨ (Rect.block (s := S64x1024x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S64x1024x128.size a
  hwx0_1 : ∀ i : grid0.Coords, EltTy.bits .f32 = 32 ∨ (Rect.block (s := S64x1024x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x1024x128.size a
  hwx0_2 : ∀ i : grid0.Coords, EltTy.bits .f32 = 32 ∨ (Rect.block (s := S64x1024x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x1024x1024.size a
  hwx0_3 : ∀ i : grid0.Coords, EltTy.bits .i32 = 32 ∨ (Rect.block (s := S4x1024x1024) S1x512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x1024x1024.size a
  hwx0_4 : ∀ i : grid0.Coords, EltTy.bits .f32 = 32 ∨ (Rect.block (s := S64x1024x1024) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S64x1024x128.size a
  hwx0_5 : ∀ i : grid0.Coords, EltTy.bits .f32 = 32 ∨ (Rect.block (s := S64x1024x128) S1x512x128.size (cc0_transform_5 i) (hinb0_5 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x16x1024x128 : Shape := ⟨4, ![4, 16, 1024, 128]⟩
abbrev S4x1x1024x1024 : Shape := ⟨4, ![4, 1, 1024, 1024]⟩
abbrev S_ : Shape := ⟨0, ![]⟩
abbrev S4x16x1024x1024 : Shape := ⟨4, ![4, 16, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x16x1024x128, .f32⟩
  | .hbm, ⟨1, _⟩ => ⟨S4x16x1024x128, .f32⟩
  | .hbm, ⟨2, _⟩ => ⟨S4x16x1024x128, .f32⟩
  | .hbm, ⟨3, _⟩ => ⟨S4x1x1024x1024, .i32⟩
  | .hbm, ⟨4, _⟩ => ⟨S_, .f32⟩
  | .hbm, ⟨5, _⟩ => ⟨S4x16x1024x128, .f32⟩
  | .hbm, ⟨6, _⟩ => ⟨S4x16x1024x128, .f32⟩
  | .hbm, ⟨7, _⟩ => ⟨S4x16x1024x1024, .f32⟩
  | .hbm, ⟨8, _⟩ => ⟨S_, .i32⟩
  | .hbm, ⟨9, _⟩ => ⟨S4x1x1024x1024, .i32⟩
  | .hbm, ⟨10, _⟩ => ⟨S4x1x1024x1024, .i1⟩
  | .hbm, ⟨11, _⟩ => ⟨S_, .f32⟩
  | .hbm, ⟨12, _⟩ => ⟨S4x16x1024x1024, .i1⟩
  | .hbm, ⟨13, _⟩ => ⟨S4x16x1024x1024, .f32⟩
  | .hbm, ⟨14, _⟩ => ⟨S4x16x1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x16x1024x1024, .f32⟩
  | .hbm, ⟨19, _⟩ => ⟨S4x16x1024x1024, .f32⟩
  | .hbm, ⟨20, _⟩ => ⟨S_, .f32⟩
  | .hbm, ⟨21, _⟩ => ⟨S4x16x1024x1024, .f32⟩
  | .hbm, ⟨22, _⟩ => ⟨S4x16x1024x1024, .f32⟩
  | .hbm, ⟨23, _⟩ => ⟨S4x16x1024x128, .f32⟩
  | _, _ => ⟨S4x16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  bcast_S_S4x16x1024x128 : S_.BroadcastsInDim S4x16x1024x128 (![] : Fin 0 → Fin S4x16x1024x128.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  bcast_S_S4x16x1024x1024 : S_.BroadcastsInDim S4x16x1024x1024 (![] : Fin 0 → Fin S4x16x1024x1024.rank)
  dot_S4x16x1024x128_S4x16x1024x128_S4x16x1024x1024_3_3_2_2_01_01_wf : DotDims.WF S4x16x1024x128 S4x16x1024x128 S4x16x1024x1024 [3] [3] [2] [2] [0, 1] [0, 1]
  dot_S4x16x1024x1024_S4x16x1024x128_S4x16x1024x128_3_2_2_3_01_01_wf : DotDims.WF S4x16x1024x1024 S4x16x1024x128 S4x16x1024x128 [3] [2] [2] [3] [0, 1] [0, 1]

variable [Facts₀]

def dot_S4x16x1024x128_S4x16x1024x128_S4x16x1024x1024_3_3_2_2_01_01 : DotDims S4x16x1024x128 S4x16x1024x128 S4x16x1024x1024 where
  lhsContracting := [3]
  rhsContracting := [3]
  lhsNonContracting := [2]
  rhsNonContracting := [2]
  lhsBatch := [0, 1]
  rhsBatch := [0, 1]
  wf := dot_S4x16x1024x128_S4x16x1024x128_S4x16x1024x1024_3_3_2_2_01_01_wf
def dot_S4x16x1024x1024_S4x16x1024x128_S4x16x1024x128_3_2_2_3_01_01 : DotDims S4x16x1024x1024 S4x16x1024x128 S4x16x1024x128 where
  lhsContracting := [3]
  rhsContracting := [2]
  lhsNonContracting := [2]
  rhsNonContracting := [3]
  lhsBatch := [0, 1]
  rhsBatch := [0, 1]
  wf := dot_S4x16x1024x1024_S4x16x1024x128_S4x16x1024x128_3_2_2_3_01_01_wf

class Facts : Prop extends Facts₀ where

variable [Facts]
-- ==== Proof.Pieces.lean ====
/-
  What one run of the kernel body leaves behind, read back as values. At a first point of the key axis (case A) the
  body zeroes the accumulator, stores the clamped score tile of the point's query, key and mask blocks, and leaves in
  the accumulator the zero block plus that tile times the point's value block. At a second point (case B) it stores its
  own score tile, adds its tile times its value block to what the first point left in the accumulator, and stores the
  accumulator as the output block. Each statement holds at any float instance: only the memory operations are opened,
  the arithmetic stays inside the named payload terms.
-/
import proofs.«162253_j36386962932539_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.Attn.Pieces

open Cert.KernelIdeal Cert.KernelIdeal.Gen

variable {F : FTy → Type} [FloatOps F] [Named F]

/-- The zero offsets of a whole-block access, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- Case A, the score tile: one whole-block store of the clamped scores of the three loaded blocks. -/
theorem out_A_4 (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x512 .i32) (harg6 : arg6.IsWhole) (arg7 : Memref sig .tc .vmem S1x512x512 .f32) (harg7 : arg7.IsWhole) (arg8 : Memref sig .tc .vmem S1x512x128 .f32) (harg8 : arg8.IsWhole) (arg9 : Memref sig .tc .vmem S512x128 .f32) (harg9 : arg9.IsWhole) (hc0 : cond0_0 i) (hc1 : ¬cond0_1 i) (x0 : Vec F S1x512x128 .f32) (x1 : Vec F S1x512x128 .f32) (x2 : Vec F S1x512x128 .f32) (x3 : Vec F S1x512x512 .i32) :
    out0_A_4 c i arg3 harg3 arg4 harg4 arg5 harg5 arg6 harg6 arg7 harg7 arg8 harg8 arg9 harg9 hc0 hc1 x0 x1 x2 x3 = k0_pay6 x0 x1 x3 := by
  unfold out0_A_4
  rw [View.read_writes_eq_canon _ _ _ (cover0_A_4 c i arg3 harg3 arg4 harg4 arg5 harg5 arg6 harg6 arg7 harg7 arg8 harg8 arg9 harg9 hc0 hc1 x0 x1 x2 x3)]
  unfold kernelRun0_A
  dsimp only
  rw [View.canon_unit_zero hz3]
  simp only [View.readAt_eq_ld, harg3.read_unread, harg4.read_unread, harg5.read_unread, harg6.read_unread,
    View.ld_unit_zero (S := S1x512x128) hz3, View.ld_unit_zero (S := S1x512x512) hz3]

/-- Case A, the accumulator: zeroed, read back, and left at zero plus the tile times the value block. -/
theorem sout_A (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x512 .i32) (harg6 : arg6.IsWhole) (arg7 : Memref sig .tc .vmem S1x512x512 .f32) (harg7 : arg7.IsWhole) (arg8 : Memref sig .tc .vmem S1x512x128 .f32) (harg8 : arg8.IsWhole) (arg9 : Memref sig .tc .vmem S512x128 .f32) (harg9 : arg9.IsWhole) (hc0 : cond0_0 i) (hc1 : ¬cond0_1 i) (x0 : Vec F S1x512x128 .f32) (x1 : Vec F S1x512x128 .f32) (x2 : Vec F S1x512x128 .f32) (x3 : Vec F S1x512x512 .i32) :
    sout0_A_0 c i arg3 harg3 arg4 harg4 arg5 harg5 arg6 harg6 arg7 harg7 arg8 harg8 arg9 harg9 hc0 hc1 x0 x1 x2 x3 = k0_pay1 (k0_pay4 x2) (k0_pay3 (F := F)) (k0_pay7 x0 x1 x3) := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x128) hz2, View.readCov_unit_zero (S := S512x128) _ hz2]
  simp only [View.readAt_eq_ld, harg3.read_unread, harg4.read_unread, harg5.read_unread, harg6.read_unread,
    View.ld_unit_zero (S := S1x512x128) hz3, View.ld_unit_zero (S := S1x512x512) hz3]

/-- Case B, the score tile: as in case A, whatever the accumulator holds. -/
theorem out_B_4 (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x512 .i32) (harg6 : arg6.IsWhole) (arg7 : Memref sig .tc .vmem S1x512x512 .f32) (harg7 : arg7.IsWhole) (arg8 : Memref sig .tc .vmem S1x512x128 .f32) (harg8 : arg8.IsWhole) (arg9 : Memref sig .tc .vmem S512x128 .f32) (harg9 : arg9.IsWhole) (hc0 : ¬cond0_0 i) (hc1 : cond0_1 i) (x0 : Vec F S1x512x128 .f32) (x1 : Vec F S1x512x128 .f32) (x2 : Vec F S1x512x128 .f32) (x3 : Vec F S1x512x512 .i32) (xs0 : Vec F S512x128 .f32) :
    out0_B_4 c i arg3 harg3 arg4 harg4 arg5 harg5 arg6 harg6 arg7 harg7 arg8 harg8 arg9 harg9 hc0 hc1 x0 x1 x2 x3 xs0 = k0_pay6 x0 x1 x3 := by
  unfold out0_B_4
  rw [View.read_writes_eq_canon _ _ _ (cover0_B_4 c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz3]
  simp only [View.readAt_eq_ld, harg3.read_unread, harg4.read_unread, harg5.read_unread, harg6.read_unread,
    View.ld_unit_zero (S := S1x512x128) hz3, View.ld_unit_zero (S := S1x512x512) hz3]

/-- Case B, the output block: the accumulator the point before left, plus this point's tile times its value block,
    stored as the block. -/
theorem out_B_5 (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x512 .i32) (harg6 : arg6.IsWhole) (arg7 : Memref sig .tc .vmem S1x512x512 .f32) (harg7 : arg7.IsWhole) (arg8 : Memref sig .tc .vmem S1x512x128 .f32) (harg8 : arg8.IsWhole) (arg9 : Memref sig .tc .vmem S512x128 .f32) (harg9 : arg9.IsWhole) (hc0 : ¬cond0_0 i) (hc1 : cond0_1 i) (x0 : Vec F S1x512x128 .f32) (x1 : Vec F S1x512x128 .f32) (x2 : Vec F S1x512x128 .f32) (x3 : Vec F S1x512x512 .i32) (xs0 : Vec F S512x128 .f32) :
    out0_B_5 c i arg3 harg3 arg4 harg4 arg5 harg5 arg6 harg6 arg7 harg7 arg8 harg8 arg9 harg9 hc0 hc1 x0 x1 x2 x3 xs0 = k0_pay2 (k0_pay1 (k0_pay4 x2) xs0 (k0_pay7 x0 x1 x3)) := by
  unfold out0_B_5
  rw [View.read_writes_eq_canon _ _ _ (cover0_B_5 c i arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz3, View.readCov_unit_zero (S := S512x128) _ hz2]
  simp only [View.readAt_eq_ld, harg3.read_unread, harg4.read_unread, harg5.read_unread, harg6.read_unread, harg9.read_unread,
    View.ld_unit_zero (S := S1x512x128) hz3, View.ld_unit_zero (S := S1x512x512) hz3, View.ld_unit_zero (S := S512x128) hz2]

end Cert.Attn.Pieces

end
-- ==== Proof.Spec.lean ====
/-
  The specification. Attention scores with a clamp in place of a softmax: for a query row and a key row the raw score
  is their inner product over the 128 features, scaled by the reciprocal of the temperature; where the mask word is
  zero the raw score is replaced by the fill value; the result is clamped below by 0 and above by 15. The second result
  is the product of the scores with the values, a sum over the 1024 key positions. Both are stated index by index, on
  the extended reals, over the argument arrays in their four-axis form [batch, head, position, feature], and again in the
  three-axis form [batch * head, position, feature] the kernel works in (the mask has one head, shared by all sixteen).

  The one algebraic law between the two programs is `scaled_dot`: the reference divides each query entry by the
  temperature before the inner product, the kernel multiplies the finished inner product by the reciprocal. On real
  (finite) entries these agree, by distributivity of the reals; on the extended reals they need not (a sum that meets
  both infinities), which is why the law is stated for entries that are real numbers.
-/
import Idealize.ShloMosaic.PureOps.Ideal
import Idealize.ShloMosaic.Lib.ValueIdx

noncomputable section

open scoped BigOperators

namespace Cert.Attn

open Idealize.ShloMosaic Idealize.ShloMosaic.ValueIdx

/-- The temperature as the reference's divisor denotes it: the dyadic rational 11863283 / 2^20. -/
abbrev temp : ℝ := 11863283 / 1048576
/-- Its exact reciprocal, the value the kernel's scale denotes. -/
abbrev invTemp : ℝ := 1048576 / 11863283

theorem invTemp_eq : invTemp = 1 / temp := by unfold invTemp temp; norm_num
theorem temp_ne_zero : temp ≠ 0 := by unfold temp; norm_num

/-- A raw score, masked and clamped: the fill where the mask word is zero, then `max 0`, then `min 15` (the three float
    words are kept as words: both programs carry the same ones). -/
def clipMask (w : BitVec 32) (s : EReal) : EReal :=
  min (Ideal.ofBits .f32 0x41700000#32)
    (max (Ideal.ofBits .f32 0x00000000#32)
      (Scalar.select (IntOp.cmpi .eq w 0#32) (Ideal.ofBits .f32 0xCE6E6B28#32) s))

/-! ## Four-axis form: the claim's arguments and results -/

/-- The scores: entry (b, h, r, c) from query row (b, h, r), key row (b, h, c) and mask word (b, 0, r, c). -/
def scores (q k : (⟨4, ![4, 16, 1024, 128]⟩ : Shape).Idx → EReal) (mask : (⟨4, ![4, 1, 1024, 1024]⟩ : Shape).Idx → BitVec 32) :
    (⟨4, ![4, 16, 1024, 1024]⟩ : Shape).Idx → EReal :=
  fun i => clipMask (mask (ix4 (i 0) (0 : Fin 1) (i 2) (i 3)))
    ((∑ d : Fin 128, q (ix4 (i 0) (i 1) (i 2) d) * k (ix4 (i 0) (i 1) (i 3) d)) * (invTemp : EReal))

/-- The scores times the values: entry (b, h, r, d) sums over the key positions. -/
def weighted (a : (⟨4, ![4, 16, 1024, 1024]⟩ : Shape).Idx → EReal) (v : (⟨4, ![4, 16, 1024, 128]⟩ : Shape).Idx → EReal) :
    (⟨4, ![4, 16, 1024, 128]⟩ : Shape).Idx → EReal :=
  fun i => ∑ j : Fin 1024, a (ix4 (i 0) (i 1) (i 2) j) * v (ix4 (i 0) (i 1) j (i 3))

/-! ## Three-axis form: batch and head merged into one axis of 64 -/

/-- The batch a merged index belongs to: sixteen heads per batch. -/
abbrev batchOf (g : Fin 64) : Fin 4 := ⟨g.val / 16, by have := g.isLt; omega⟩

/-- The scores over the merged axis: entry (g, r, c) reads mask word (g / 16, r, c). -/
def scores3 (q k : (⟨3, ![64, 1024, 128]⟩ : Shape).Idx → EReal) (mask : (⟨3, ![4, 1024, 1024]⟩ : Shape).Idx → BitVec 32) :
    (⟨3, ![64, 1024, 1024]⟩ : Shape).Idx → EReal :=
  fun i => clipMask (mask (ix3 (batchOf (i 0)) (i 1) (i 2)))
    ((∑ d : Fin 128, q (ix3 (i 0) (i 1) d) * k (ix3 (i 0) (i 2) d)) * (invTemp : EReal))

/-- The scores times the values over the merged axis. -/
def weighted3 (a : (⟨3, ![64, 1024, 1024]⟩ : Shape).Idx → EReal) (v : (⟨3, ![64, 1024, 128]⟩ : Shape).Idx → EReal) :
    (⟨3, ![64, 1024, 128]⟩ : Shape).Idx → EReal :=
  fun i => ∑ j : Fin 1024, a (ix3 (i 0) (i 1) j) * v (ix3 (i 0) j (i 2))

/-! ## The law between the two programs -/

/-- A finite sum of real numbers, coerced term by term, is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Dividing every query entry by the temperature before the inner product is multiplying the finished inner product
    by the reciprocal, when the entries are real numbers: distributivity in ℝ. (`Ideal.div` by a nonzero real is the
    product with its reciprocal on every extended real; the sum is then moved through the coercion.) -/
theorem scaled_dot {ι : Type*} [Fintype ι] (a b : ι → ℝ) :
    (∑ d : ι, Ideal.div ((a d : ℝ) : EReal) ((temp : ℝ) : EReal) * ((b d : ℝ) : EReal))
      = (∑ d : ι, ((a d : ℝ) : EReal) * ((b d : ℝ) : EReal)) * ((invTemp : ℝ) : EReal) := by
  have h1 : ∀ d, Ideal.div ((a d : ℝ) : EReal) ((temp : ℝ) : EReal) * ((b d : ℝ) : EReal)
      = ((a d * (1 / temp) * b d : ℝ) : EReal) := fun d => by
    rw [Ideal.div_coe temp_ne_zero, ← EReal.coe_mul, ← EReal.coe_mul]
  have h2 : ∀ d, ((a d : ℝ) : EReal) * ((b d : ℝ) : EReal) = ((a d * b d : ℝ) : EReal) := fun d => (EReal.coe_mul _ _).symm
  simp only [h1, h2]
  rw [coe_sum, coe_sum, ← EReal.coe_mul, invTemp_eq]
  congr 1
  rw [Finset.sum_mul]
  exact Finset.sum_congr rfl fun d _ => by ring

end Cert.Attn

end
-- ==== Proof.Payload.lean ====
/-
  The body's arithmetic read at one element, on the extended reals. The two matrix products are plain sums over the
  contracted axis (into a zero accumulator, no rounding, no order); the changes of float format are the identity; the
  kernel's scale is the exact reciprocal of the temperature. So an element of the score tile is the clamped, masked,
  scaled inner product of a query row and a key row of the loaded blocks, and an element of the accumulator's update is
  what the accumulator held plus the tile's row times the value block's column.
-/
import proofs.«162253_j36386962932539_1_alg».proof.Proof.Gen.KernelIdeal.Skeleton
import proofs.«162253_j36386962932539_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.Attn.Payload

open Idealize.ShloMosaic Idealize.ShloMosaic.ValueIdx Cert.KernelIdeal Cert.KernelIdeal.Gen Cert.Attn

/-- The kernel's scale, named in the certificate's table, denotes the exact reciprocal of the temperature. -/
theorem scale_eq :
    Named.named (F := Ideal) Cert.KernelIdeal.κ "inv_temperature" (φ := .f32) 0x3DB504F3#32 = ((invTemp : ℝ) : EReal) :=
  IdealRules.named_const.ideal_named_scalar _ _ _ _ rfl

/-- Query block times key block, both contracted along their feature axis: entry (r, c) is the inner product of
    row r of the first with row c of the second. -/
theorem qk_apply (L R : FVec Ideal S512x128 .bf16) (r c : Fin 512) :
    matmul dot_S512x128_S512x128_S512x512_1_1_0_0_n_n none L R (constant (F := Ideal) S512x512 .f32 0x00000000#32) (ix2 r c)
      = ∑ d : Fin 128, L (ix2 r d) * R (ix2 c d) := by
  simp only [matmul]
  rw [Ideal.matmul_constant_zero_apply,
    ← Equiv.sum_comp (contrEquiv1 dot_S512x128_S512x128_S512x512_1_1_0_0_n_n 128 rfl rfl).symm]
  refine Finset.sum_congr rfl fun d _ => ?_
  have hd := contrEquiv1_symm_val dot_S512x128_S512x128_S512x512_1_1_0_0_n_n 128 rfl rfl d
  have el : dot_S512x128_S512x128_S512x512_1_1_0_0_n_n.lhsIdx (ix2 r c)
      ((contrEquiv1 dot_S512x128_S512x128_S512x512_1_1_0_0_n_n 128 rfl rfl).symm d) = ix2 r d :=
    funext fun a => Fin.ext (by
      match a with
      | ⟨0, _⟩ => rfl
      | ⟨1, _⟩ => exact (dot_S512x128_S512x128_S512x512_1_1_0_0_n_n.lhsIdx_val_of_single rfl _ _).trans hd)
  have er : dot_S512x128_S512x128_S512x512_1_1_0_0_n_n.rhsIdx (ix2 r c)
      ((contrEquiv1 dot_S512x128_S512x128_S512x512_1_1_0_0_n_n 128 rfl rfl).symm d) = ix2 c d :=
    funext fun a => Fin.ext (by
      match a with
      | ⟨0, _⟩ => rfl
      | ⟨1, _⟩ => exact (dot_S512x128_S512x128_S512x512_1_1_0_0_n_n.rhsIdx_val_of_single rfl _ _).trans hd)
  rw [el, er]

/-- Score tile times value block: entry (r, d) sums the tile's row r against the block's column d. -/
theorem av_apply (A : FVec Ideal S512x512 .bf16) (V : FVec Ideal S512x128 .bf16) (r : Fin 512) (d : Fin 128) :
    matmul dot_S512x512_S512x128_S512x128_1_0_0_1_n_n none A V (constant (F := Ideal) S512x128 .f32 0x00000000#32) (ix2 r d)
      = ∑ j : Fin 512, A (ix2 r j) * V (ix2 j d) := by
  simp only [matmul]
  rw [Ideal.matmul_constant_zero_apply,
    ← Equiv.sum_comp (contrEquiv1 dot_S512x512_S512x128_S512x128_1_0_0_1_n_n 512 rfl rfl).symm]
  refine Finset.sum_congr rfl fun j _ => ?_
  have hj := contrEquiv1_symm_val dot_S512x512_S512x128_S512x128_1_0_0_1_n_n 512 rfl rfl j
  have el : dot_S512x512_S512x128_S512x128_1_0_0_1_n_n.lhsIdx (ix2 r d)
      ((contrEquiv1 dot_S512x512_S512x128_S512x128_1_0_0_1_n_n 512 rfl rfl).symm j) = ix2 r j :=
    funext fun a => Fin.ext (by
      match a with
      | ⟨0, _⟩ => rfl
      | ⟨1, _⟩ => exact (dot_S512x512_S512x128_S512x128_1_0_0_1_n_n.lhsIdx_val_of_single rfl _ _).trans hj)
  have er : dot_S512x512_S512x128_S512x128_1_0_0_1_n_n.rhsIdx (ix2 r d)
      ((contrEquiv1 dot_S512x512_S512x128_S512x128_1_0_0_1_n_n 512 rfl rfl).symm j) = ix2 j d :=
    funext fun a => Fin.ext (by
      match a with
      | ⟨0, _⟩ => exact (dot_S512x512_S512x128_S512x128_1_0_0_1_n_n.rhsIdx_val_of_single rfl _ _).trans hj
      | ⟨1, _⟩ => rfl)
  rw [el, er]

/-- One element of the score tile: the clamped, masked, scaled inner product of query row r and key row c of the
    loaded blocks, with the mask word at (r, c). -/
theorem tile_apply (x0 x1 : Vec Ideal S1x512x128 .f32) (x3 : Vec Ideal S1x512x512 .i32) (r c : Fin 512) :
    k0_pay5 (F := Ideal) x0 x1 x3 (ix2 r c)
      = clipMask (x3 (ix3 (0 : Fin 1) r c))
          ((∑ d : Fin 128, x0 (ix3 (0 : Fin 1) r d) * x1 (ix3 (0 : Fin 1) c d)) * ((invTemp : ℝ) : EReal)) := by
  unfold k0_pay5 clipMask
  simp only [minimumf_apply, maximumf_apply, select_apply, broadcast_apply, mulf_apply]
  rw [qk_apply, scale_eq]
  simp only [cmpi, broadcast_apply, truncf_apply, shapeCast_1ab_ab_apply, Ideal.ofBits_def]

/-- The tile as the output block stores it, under a leading unit axis. -/
theorem tile_block_apply (x0 x1 : Vec Ideal S1x512x128 .f32) (x3 : Vec Ideal S1x512x512 .i32) (u : Fin 1) (r c : Fin 512) :
    k0_pay6 (F := Ideal) x0 x1 x3 (ix3 u r c) = k0_pay5 (F := Ideal) x0 x1 x3 (ix2 r c) := by
  unfold k0_pay6
  exact shapeCast_ab_1ab_apply _ _ u r c

/-- The tile as the second product reads it: a change of float format, the identity here. -/
theorem tile_narrow_apply (x0 x1 : Vec Ideal S1x512x128 .f32) (x3 : Vec Ideal S1x512x512 .i32) (r c : Fin 512) :
    k0_pay7 (F := Ideal) x0 x1 x3 (ix2 r c) = k0_pay5 (F := Ideal) x0 x1 x3 (ix2 r c) := rfl

/-- The value block as the second product reads it: the leading unit axis dropped, the format change the identity. -/
theorem value_apply (x2 : Vec Ideal S1x512x128 .f32) (j : Fin 512) (d : Fin 128) :
    k0_pay4 (F := Ideal) x2 (ix2 j d) = x2 (ix3 (0 : Fin 1) j d) := by
  unfold k0_pay4
  simp only [truncf_apply, shapeCast_1ab_ab_apply]

/-- The zero block the accumulator starts from. -/
theorem zero_apply (j : S512x128.Idx) : k0_pay3 (F := Ideal) j = 0 := by
  unfold k0_pay3
  rw [shapeCast_self]
  show Ideal.ofBits .f32 0x00000000#32 = 0
  exact Ideal.ofBits_zero_f32

/-- The accumulator's update at (r, d): what it held, plus the tile's row r against the value block's column d. -/
theorem update_apply (v11 : FVec Ideal S512x128 .bf16) (v28 : Vec Ideal S512x128 .f32) (v29 : FVec Ideal S512x512 .bf16)
    (r : Fin 512) (d : Fin 128) :
    k0_pay1 (F := Ideal) v11 v28 v29 (ix2 r d) = v28 (ix2 r d) + ∑ j : Fin 512, v29 (ix2 r j) * v11 (ix2 j d) := by
  unfold k0_pay1
  rw [shapeCast_self]
  simp only [addf_apply]
  rw [av_apply]

/-- The accumulator as the output block stores it, under a leading unit axis. -/
theorem out_block_apply (v38 : Vec Ideal S512x128 .f32) (u : Fin 1) (r : Fin 512) (d : Fin 128) :
    k0_pay2 (F := Ideal) v38 (ix3 u r d) = v38 (ix2 r d) := by
  unfold k0_pay2
  exact shapeCast_ab_1ab_apply _ _ u r d

end Cert.Attn.Payload

end
-- ==== Proof.Point.lean ====
/-
  One grid point's arithmetic against the specification. The key axis of 1024 positions is cut in two halves of 512;
  `half b j` is position j of half b. A score tile computed from a query block (rows of half qi), a key block (rows
  of half ki) and the mask block at (qi, ki) is that block of the three-axis score array. The output block of query
  half qi is reached in two steps: zero plus the first key half's tile times the first half of the values, then plus
  the second key half's tile times the second half of the values; the two partial sums over 512 positions are the sum
  over all 1024, which is the specification's product of the scores with the values. Adding the two halves is
  associativity of a finite sum, valid on the extended reals as they are.
-/
import proofs.«162253_j36386962932539_1_alg».proof.Proof.Payload

noncomputable section

open scoped BigOperators

namespace Cert.Attn.Point

open Idealize.ShloMosaic Idealize.ShloMosaic.ValueIdx Cert.KernelIdeal Cert.KernelIdeal.Gen Cert.Attn Cert.Attn.Payload

/-- Position j of half b of an axis of 1024. -/
abbrev half (b : Fin 2) (j : Fin 512) : Fin 1024 := ⟨512 * b.val + j.val, by have := b.isLt; have := j.isLt; omega⟩

/-- A sum over the 1024 positions is the sum over the first half plus the sum over the second. -/
theorem sum_halves {M : Type*} [AddCommMonoid M] (f : Fin 1024 → M) :
    ∑ j : Fin 1024, f j = (∑ j : Fin 512, f (half 0 j)) + ∑ j : Fin 512, f (half 1 j) := by
  have h := Fin.sum_univ_add (a := 512) (b := 512) (fun i : Fin (512 + 512) => f ⟨i.val, i.isLt⟩)
  refine h.trans ?_
  congr 1

variable (Q K W : (⟨3, ![64, 1024, 128]⟩ : Shape).Idx → EReal) (M : (⟨3, ![4, 1024, 1024]⟩ : Shape).Idx → BitVec 32)

/-- A tile element is the score array's element: query row r of half qi against key row c of half ki. -/
theorem tile_eq (x0 x1 : Vec Ideal S1x512x128 .f32) (x3 : Vec Ideal S1x512x512 .i32) (g : Fin 64) (qi ki : Fin 2)
    (h0 : ∀ (r : Fin 512) (d : Fin 128), x0 (ix3 (0 : Fin 1) r d) = Q (ix3 g (half qi r) d))
    (h1 : ∀ (c : Fin 512) (d : Fin 128), x1 (ix3 (0 : Fin 1) c d) = K (ix3 g (half ki c) d))
    (h3 : ∀ (r c : Fin 512), x3 (ix3 (0 : Fin 1) r c) = M (ix3 (batchOf g) (half qi r) (half ki c)))
    (r c : Fin 512) :
    k0_pay5 (F := Ideal) x0 x1 x3 (ix2 r c) = scores3 Q K M (ix3 g (half qi r) (half ki c)) := by
  rw [tile_apply, h3]
  simp only [h0, h1]
  rfl

/-- The output block after the two points of one query half: the product of the scores with the values at row r of
    half qi, feature d. The first point's blocks are the `x`s (key half 0), the second point's the `y`s (key half 1). -/
theorem acc_eq (x0 x1 x2 : Vec Ideal S1x512x128 .f32) (x3 : Vec Ideal S1x512x512 .i32)
    (y0 y1 y2 : Vec Ideal S1x512x128 .f32) (y3 : Vec Ideal S1x512x512 .i32) (g : Fin 64) (qi : Fin 2)
    (hx0 : ∀ (r : Fin 512) (d : Fin 128), x0 (ix3 (0 : Fin 1) r d) = Q (ix3 g (half qi r) d))
    (hx1 : ∀ (c : Fin 512) (d : Fin 128), x1 (ix3 (0 : Fin 1) c d) = K (ix3 g (half 0 c) d))
    (hx2 : ∀ (j : Fin 512) (d : Fin 128), x2 (ix3 (0 : Fin 1) j d) = W (ix3 g (half 0 j) d))
    (hx3 : ∀ (r c : Fin 512), x3 (ix3 (0 : Fin 1) r c) = M (ix3 (batchOf g) (half qi r) (half 0 c)))
    (hy0 : ∀ (r : Fin 512) (d : Fin 128), y0 (ix3 (0 : Fin 1) r d) = Q (ix3 g (half qi r) d))
    (hy1 : ∀ (c : Fin 512) (d : Fin 128), y1 (ix3 (0 : Fin 1) c d) = K (ix3 g (half 1 c) d))
    (hy2 : ∀ (j : Fin 512) (d : Fin 128), y2 (ix3 (0 : Fin 1) j d) = W (ix3 g (half 1 j) d))
    (hy3 : ∀ (r c : Fin 512), y3 (ix3 (0 : Fin 1) r c) = M (ix3 (batchOf g) (half qi r) (half 1 c)))
    (u : Fin 1) (r : Fin 512) (d : Fin 128) :
    k0_pay2 (F := Ideal) (k0_pay1 (k0_pay4 y2) (k0_pay1 (k0_pay4 x2) (k0_pay3 (F := Ideal)) (k0_pay7 x0 x1 x3)) (k0_pay7 y0 y1 y3)) (ix3 u r d)
      = weighted3 (scores3 Q K M) W (ix3 g (half qi r) d) := by
  rw [out_block_apply, update_apply, update_apply, zero_apply, zero_add]
  simp only [tile_narrow_apply, value_apply, hx2, hy2,
    tile_eq Q K M x0 x1 x3 g qi 0 hx0 hx1 hx3, tile_eq Q K M y0 y1 y3 g qi 1 hy0 hy1 hy3]
  exact (sum_halves fun j => scores3 Q K M (ix3 g (half qi r) j) * W (ix3 g j d)).symm

end Cert.Attn.Point

end
-- ==== Proof.Blocks.lean ====
/-
  From blocks to arrays. The grid has 64 * 2 * 2 points; point t works on merged batch-head row t / 4, query half
  (t / 2) % 2 and key half t % 2. Its query block is rows of the query half, its key and value blocks rows of the key
  half, its mask block the (query half, key half) block of batch (t / 4) / 16 = t / 64. Every point writes its score
  tile back, and the 256 tiles tile the score array; the second point of each pair writes the output block back, and
  the 128 blocks tile the output array. So after the run the score array is the specification's, and the output
  array is the specification's product of the scores with the values.
-/
import proofs.«162253_j36386962932539_1_alg».proof.Proof.Gen.KernelIdeal.Frame
import proofs.«162253_j36386962932539_1_alg».proof.Proof.Pieces
import proofs.«162253_j36386962932539_1_alg».proof.Proof.Point
import Idealize.ShloMosaic.Lib.Pipeline.Value

noncomputable section

open scoped BigOperators

namespace Cert.Attn.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Attn Cert.Attn.Point

variable (m : (ℓ : Loc nD τ sig) → Buf (Elt Ideal) ℓ)

/-- The grid has 256 points. -/
theorem lt256 (t : Fin cfg0.N) : t.val < 256 := lt_of_lt_of_eq t.isLt (show cfg0.N = 256 from N_0)

/-- The merged batch-head row, the query half and the key half of point t. -/
abbrev gOf (t : Fin cfg0.N) : Fin 64 := ⟨t.val / 4, by have := lt256 t; omega⟩
abbrev qOf (t : Fin cfg0.N) : Fin 2 := ⟨t.val / 2 % 2, by omega⟩
abbrev kOf (t : Fin cfg0.N) : Fin 2 := ⟨t.val % 2, by omega⟩

/-- The six windows' block indices at point t, decided once over the grid. -/
theorem idx_facts : ∀ t : Fin cfg0.N,
    (win0_0.index t (0 : Fin 3) = t.val / 4 ∧ win0_0.index t (1 : Fin 3) = t.val / 2 % 2 ∧ win0_0.index t (2 : Fin 3) = 0)
    ∧ (win0_1.index t (0 : Fin 3) = t.val / 4 ∧ win0_1.index t (1 : Fin 3) = t.val % 2 ∧ win0_1.index t (2 : Fin 3) = 0)
    ∧ (win0_2.index t (0 : Fin 3) = t.val / 4 ∧ win0_2.index t (1 : Fin 3) = t.val % 2 ∧ win0_2.index t (2 : Fin 3) = 0)
    ∧ (win0_3.index t (0 : Fin 3) = t.val / 64 ∧ win0_3.index t (1 : Fin 3) = t.val / 2 % 2 ∧ win0_3.index t (2 : Fin 3) = t.val % 2)
    ∧ (win0_4.index t (0 : Fin 3) = t.val / 4 ∧ win0_4.index t (1 : Fin 3) = t.val / 2 % 2 ∧ win0_4.index t (2 : Fin 3) = t.val % 2)
    ∧ (win0_5.index t (0 : Fin 3) = t.val / 4 ∧ win0_5.index t (1 : Fin 3) = t.val / 2 % 2 ∧ win0_5.index t (2 : Fin 3) = 0) :=
  (by decide +kernel : ∀ t : Fin grid0.N, _)

/-! ## The input blocks read the region's arrays -/

/-- The query block at point t: row r, feature d of the block is row r of the point's query half. -/
theorem read0 (c : Dev nD) (t : Fin cfg0.N) (r : Fin 512) (d : Fin 128) :
    (iblk m c 0 t : Vec Ideal S1x512x128 .f32) (ix3 (0 : Fin 1) r d) = V m c main_v0 (ix3 (gOf t) (half (qOf t) r) d) := by
  obtain ⟨⟨e0, e1, e2⟩, -⟩ := idx_facts t
  show V m c main_v0 (((cfg0.win 0).blk t).view.emb (ix3 (0 : Fin 1) r d)) = _
  have h : ((cfg0.win 0).blk t).view.emb (ix3 (0 : Fin 1) r d) = ix3 (gOf t) (half (qOf t) r) d := by
    funext a; apply Fin.ext
    match a with
    | ⟨0, _⟩ => show win0_0.index t (0 : Fin 3) * 1 + 1 * 0 = t.val / 4; omega
    | ⟨1, _⟩ => show win0_0.index t (1 : Fin 3) * 512 + 1 * r.val = 512 * (t.val / 2 % 2) + r.val; omega
    | ⟨2, _⟩ => show win0_0.index t (2 : Fin 3) * 128 + 1 * d.val = d.val; omega
  rw [h]

/-- The key block at point t: row c of the block is row c of the point's key half. -/
theorem read1 (c : Dev nD) (t : Fin cfg0.N) (cc : Fin 512) (d : Fin 128) :
    (iblk m c 1 t : Vec Ideal S1x512x128 .f32) (ix3 (0 : Fin 1) cc d) = V m c main_v1 (ix3 (gOf t) (half (kOf t) cc) d) := by
  obtain ⟨-, ⟨e0, e1, e2⟩, -⟩ := idx_facts t
  show V m c main_v1 (((cfg0.win 1).blk t).view.emb (ix3 (0 : Fin 1) cc d)) = _
  have h : ((cfg0.win 1).blk t).view.emb (ix3 (0 : Fin 1) cc d) = ix3 (gOf t) (half (kOf t) cc) d := by
    funext a; apply Fin.ext
    match a with
    | ⟨0, _⟩ => show win0_1.index t (0 : Fin 3) * 1 + 1 * 0 = t.val / 4; omega
    | ⟨1, _⟩ => show win0_1.index t (1 : Fin 3) * 512 + 1 * cc.val = 512 * (t.val % 2) + cc.val; omega
    | ⟨2, _⟩ => show win0_1.index t (2 : Fin 3) * 128 + 1 * d.val = d.val; omega
  rw [h]

/-- The value block at point t: row j of the block is row j of the point's key half. -/
theorem read2 (c : Dev nD) (t : Fin cfg0.N) (j : Fin 512) (d : Fin 128) :
    (iblk m c 2 t : Vec Ideal S1x512x128 .f32) (ix3 (0 : Fin 1) j d) = V m c main_v2 (ix3 (gOf t) (half (kOf t) j) d) := by
  obtain ⟨-, -, ⟨e0, e1, e2⟩, -⟩ := idx_facts t
  show V m c main_v2 (((cfg0.win 2).blk t).view.emb (ix3 (0 : Fin 1) j d)) = _
  have h : ((cfg0.win 2).blk t).view.emb (ix3 (0 : Fin 1) j d) = ix3 (gOf t) (half (kOf t) j) d := by
    funext a; apply Fin.ext
    match a with
    | ⟨0, _⟩ => show win0_2.index t (0 : Fin 3) * 1 + 1 * 0 = t.val / 4; omega
    | ⟨1, _⟩ => show win0_2.index t (1 : Fin 3) * 512 + 1 * j.val = 512 * (t.val % 2) + j.val; omega
    | ⟨2, _⟩ => show win0_2.index t (2 : Fin 3) * 128 + 1 * d.val = d.val; omega
  rw [h]

/-- The mask block at point t: the (query half, key half) block of the row's batch. -/
theorem read3 (c : Dev nD) (t : Fin cfg0.N) (r cc : Fin 512) :
    (iblk m c 3 t : Vec Ideal S1x512x512 .i32) (ix3 (0 : Fin 1) r cc)
      = V m c main_v3 (ix3 (batchOf (gOf t)) (half (qOf t) r) (half (kOf t) cc)) := by
  obtain ⟨-, -, -, ⟨e0, e1, e2⟩, -⟩ := idx_facts t
  show V m c main_v3 (((cfg0.win 3).blk t).view.emb (ix3 (0 : Fin 1) r cc)) = _
  have h : ((cfg0.win 3).blk t).view.emb (ix3 (0 : Fin 1) r cc) = ix3 (batchOf (gOf t)) (half (qOf t) r) (half (kOf t) cc) := by
    funext a; apply Fin.ext
    match a with
    | ⟨0, _⟩ => show win0_3.index t (0 : Fin 3) * 1 + 1 * 0 = t.val / 4 / 16; omega
    | ⟨1, _⟩ => show win0_3.index t (1 : Fin 3) * 512 + 1 * r.val = 512 * (t.val / 2 % 2) + r.val; omega
    | ⟨2, _⟩ => show win0_3.index t (2 : Fin 3) * 512 + 1 * cc.val = 512 * (t.val % 2) + cc.val; omega
  rw [h]

/-! ## The score array -/

/-- The three-axis score array of the region's query, key and mask arrays. -/
abbrev S3 (c : Dev nD) : (⟨3, ![64, 1024, 1024]⟩ : Shape).Idx → EReal :=
  scores3 (V m c main_v0) (V m c main_v1) (V m c main_v3)

/-- The score tile of point t's blocks is the (query half, key half) block of row t / 4 of the score array. -/
theorem tile_at (c : Dev nD) (t : Fin cfg0.N) (u : Fin 1) (r cc : Fin 512) :
    k0_pay6 (F := Ideal) (iblk m c 0 t) (iblk m c 1 t) (iblk m c 3 t) (ix3 u r cc)
      = S3 m c (ix3 (gOf t) (half (qOf t) r) (half (kOf t) cc)) :=
  (Payload.tile_block_apply (iblk m c 0 t) (iblk m c 1 t) (iblk m c 3 t) u r cc).trans
    (tile_eq (V m c main_v0) (V m c main_v1) (V m c main_v3) (iblk m c 0 t) (iblk m c 1 t) (iblk m c 3 t)
      (gOf t) (qOf t) (kOf t) (read0 m c t) (read1 m c t) (read3 m c t) r cc)

/-- What point t writes back into the score array is block t of the specification's score array. -/
theorem flushed4 (c : Dev nD) (t : Fin cfg0.N) :
    (dats m 0 c).flushed 4 t = ((cfg0.win 4).blk t).view.read (Elt Ideal) (S3 m c) := by
  show (cfg0.win 4).cut (grid0.coords t) ((dats m 0 c).after 4 t) = _
  rw [after0_4]
  obtain ⟨-, -, -, -, ⟨e0, e1, e2⟩, -⟩ := idx_facts t
  have hemb : ∀ (r cc : Fin 512), ((cfg0.win 4).blk t).view.emb (ix3 (0 : Fin 1) r cc)
      = ix3 (gOf t) (half (qOf t) r) (half (kOf t) cc) := by
    intro r cc; funext a; apply Fin.ext
    match a with
    | ⟨0, _⟩ => show win0_4.index t (0 : Fin 3) * 1 + 1 * 0 = t.val / 4; omega
    | ⟨1, _⟩ => show win0_4.index t (1 : Fin 3) * 512 + 1 * r.val = 512 * (t.val / 2 % 2) + r.val; omega
    | ⟨2, _⟩ => show win0_4.index t (2 : Fin 3) * 512 + 1 * cc.val = 512 * (t.val % 2) + cc.val; omega
  funext j
  obtain ⟨u, r, cc, rfl⟩ : ∃ (u : Fin 1) (r cc : Fin 512), j = ix3 u r cc := ⟨j 0, j 1, j 2, eq_ix3 j⟩
  obtain rfl : u = 0 := Subsingleton.elim _ _
  show (outsAt0 m c t.val t.isLt).1 (ix3 (0 : Fin 1) r cc) = S3 m c (((cfg0.win 4).blk t).view.emb (ix3 (0 : Fin 1) r cc))
  rw [hemb]
  by_cases h0 : t.val % 2 = 0
  · have h1 : ¬t.val % 2 = 1 := by omega
    rw [outsAt0_A m c t h0 h1]
    dsimp only
    refine (congrFun (Pieces.out_A_4 (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) ((hcond0_0 t).mpr h0)
      (fun h => h1 ((hcond0_1 t).mp h)) (iblk m c 0 t) (iblk m c 1 t) (iblk m c 2 t) (iblk m c 3 t)) _).trans ?_
    exact tile_at m c t 0 r cc
  · have h1 : t.val % 2 = 1 := by omega
    rw [outsAt0_B m c t h0 h1]
    dsimp only
    refine (congrFun (Pieces.out_B_4 (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _) (fun h => h0 ((hcond0_0 t).mp h))
      ((hcond0_1 t).mpr h1) (iblk m c 0 t) (iblk m c 1 t) (iblk m c 2 t) (iblk m c 3 t)
      (outsAt0 m c (t.val - 1) (Nat.lt_of_le_of_lt (Nat.sub_le _ _) t.isLt)).2.2) _).trans ?_
    exact tile_at m c t 0 r cc

/-- An index of the score array is in point t's block iff each coordinate is in the block's range on its axis. -/
theorem mem_blk4 (t : Fin cfg0.N) (i : S64x1024x1024.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v4_0).slice (win0_4.rect t)).set ↔ _
  rw [View.set_slice_whole, Rect.mem_set_unit]
  exact Iff.rfl

/-- Every entry (g, R, C) of the score array is in the block of point 4 g + 2 (R / 512) + C / 512. -/
theorem cover4 (i : S64x1024x1024.Idx) :
    ∃ t : Fin cfg0.N, (cfg0.win 4).flush t = true ∧ i ∈ ((cfg0.win 4).blk t).view.set := by
  have h0 : (i 0).val < 64 := (i 0).isLt
  have h1 : (i 1).val < 1024 := (i 1).isLt
  have h2 : (i 2).val < 1024 := (i 2).isLt
  have hN : cfg0.N = 256 := N_0
  refine ⟨⟨4 * (i 0).val + 2 * ((i 1).val / 512) + (i 2).val / 512, by omega⟩, flush0_4 _, ?_⟩
  rw [mem_blk4]
  obtain ⟨-, -, -, -, ⟨e0, e1, e2⟩, -⟩ :=
    idx_facts ⟨4 * (i 0).val + 2 * ((i 1).val / 512) + (i 2).val / 512, by omega⟩
  dsimp only at e0 e1 e2
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 512 ≤ (i 1).val ∧ (i 1).val < win0_4.index _ (1 : Fin 3) * 512 + 512
    omega
  | ⟨2, _⟩ =>
    show win0_4.index _ (2 : Fin 3) * 512 ≤ (i 2).val ∧ (i 2).val < win0_4.index _ (2 : Fin 3) * 512 + 512
    omega

/-- After the run the score array is the specification's score array of the region's arrays. -/
theorem final4 (c : Dev nD) : (dats m 0 c).arrAt 4 cfg0.N = S3 m c :=
  (dats m 0 c).arrAt_eq_of_cover 4 (S3 m c) (fun t _ => flushed4 m c t) cover4

/-! ## The output array -/

/-- The three-axis product of the score array with the region's value array. -/
abbrev O3 (c : Dev nD) : (⟨3, ![64, 1024, 128]⟩ : Shape).Idx → EReal :=
  weighted3 (S3 m c) (V m c main_v2)

/-- What the second point of a pair writes back into the output array is its block of the specification's product:
    the accumulator the first point left (zero plus its tile times its value block) plus the second point's tile times
    its value block, the two key halves of one sum over the key positions. -/
theorem flushed5 (c : Dev nD) (t : Fin cfg0.N) (hf : (cfg0.win 5).flush t = true) :
    (dats m 0 c).flushed 5 t = ((cfg0.win 5).blk t).view.read (Elt Ideal) (O3 m c) := by
  have h1 : t.val % 2 = 1 := (flush0_5 t).mp hf
  have h0 : ¬t.val % 2 = 0 := by omega
  have hN : cfg0.N = 256 := N_0
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  show (cfg0.win 5).cut (grid0.coords t) ((dats m 0 c).after 5 t) = _
  rw [after0_5]
  obtain ⟨-, -, -, -, -, ⟨e0, e1, e2⟩⟩ := idx_facts t
  have hemb : ∀ (r : Fin 512) (d : Fin 128), ((cfg0.win 5).blk t).view.emb (ix3 (0 : Fin 1) r d)
      = ix3 (gOf t) (half (qOf t) r) d := by
    intro r d; funext a; apply Fin.ext
    match a with
    | ⟨0, _⟩ => show win0_5.index t (0 : Fin 3) * 1 + 1 * 0 = t.val / 4; omega
    | ⟨1, _⟩ => show win0_5.index t (1 : Fin 3) * 512 + 1 * r.val = 512 * (t.val / 2 % 2) + r.val; omega
    | ⟨2, _⟩ => show win0_5.index t (2 : Fin 3) * 128 + 1 * d.val = d.val; omega
  -- the first point of the pair is on the same row and query half, on key half 0; this one is on key half 1
  have eg : gOf (⟨t.val - 1, hlt⟩ : Fin cfg0.N) = gOf t := Fin.ext (by show (t.val - 1) / 4 = t.val / 4; omega)
  have eq : qOf (⟨t.val - 1, hlt⟩ : Fin cfg0.N) = qOf t := Fin.ext (by show (t.val - 1) / 2 % 2 = t.val / 2 % 2; omega)
  have ek' : kOf (⟨t.val - 1, hlt⟩ : Fin cfg0.N) = 0 := Fin.ext (by show (t.val - 1) % 2 = 0; omega)
  have ek : kOf t = 1 := Fin.ext (by show t.val % 2 = 1; omega)
  -- what the first point left in the accumulator
  have hs : (outsAt0 m c (t.val - 1) hlt).2.2
      = k0_pay1 (F := Ideal) (k0_pay4 (iblk m c 2 ⟨t.val - 1, hlt⟩)) (k0_pay3 (F := Ideal))
          (k0_pay7 (iblk m c 0 ⟨t.val - 1, hlt⟩) (iblk m c 1 ⟨t.val - 1, hlt⟩) (iblk m c 3 ⟨t.val - 1, hlt⟩)) := by
    show (outsAt0 m c (⟨t.val - 1, hlt⟩ : Fin cfg0.N).val (⟨t.val - 1, hlt⟩ : Fin cfg0.N).isLt).2.2 = _
    rw [outsAt0_A m c ⟨t.val - 1, hlt⟩ h0' h1']
    dsimp only
    exact Pieces.sout_A (F := Ideal) c (grid0.coords ⟨t.val - 1, hlt⟩) (ms0_0 ⟨t.val - 1, hlt⟩) (hs0_0 ⟨t.val - 1, hlt⟩)
      (ms0_1 ⟨t.val - 1, hlt⟩) (hs0_1 ⟨t.val - 1, hlt⟩) (ms0_2 ⟨t.val - 1, hlt⟩) (hs0_2 ⟨t.val - 1, hlt⟩)
      (ms0_3 ⟨t.val - 1, hlt⟩) (hs0_3 ⟨t.val - 1, hlt⟩) (ms0_4 ⟨t.val - 1, hlt⟩) (hs0_4 ⟨t.val - 1, hlt⟩)
      (ms0_5 ⟨t.val - 1, hlt⟩) (hs0_5 ⟨t.val - 1, hlt⟩) scM0_0 (Memref.isWhole_whole _)
      ((hcond0_0 ⟨t.val - 1, hlt⟩).mpr h0') (fun h => h1' ((hcond0_1 ⟨t.val - 1, hlt⟩).mp h))
      (iblk m c 0 ⟨t.val - 1, hlt⟩) (iblk m c 1 ⟨t.val - 1, hlt⟩) (iblk m c 2 ⟨t.val - 1, hlt⟩) (iblk m c 3 ⟨t.val - 1, hlt⟩)
  funext j
  obtain ⟨u, r, d, rfl⟩ : ∃ (u : Fin 1) (r : Fin 512) (d : Fin 128), j = ix3 u r d := ⟨j 0, j 1, j 2, eq_ix3 j⟩
  obtain rfl : u = 0 := Subsingleton.elim _ _
  show (outsAt0 m c t.val t.isLt).2.1 (ix3 (0 : Fin 1) r d) = O3 m c (((cfg0.win 5).blk t).view.emb (ix3 (0 : Fin 1) r d))
  rw [hemb, outsAt0_B m c t h0 h1]
  dsimp only
  refine (congrFun (Pieces.out_B_5 (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) scM0_0 (Memref.isWhole_whole _) (fun h => h0 ((hcond0_0 t).mp h))
    ((hcond0_1 t).mpr h1) (iblk m c 0 t) (iblk m c 1 t) (iblk m c 2 t) (iblk m c 3 t)
    (outsAt0 m c (t.val - 1) hlt).2.2) _).trans ?_
  rw [hs]
  exact acc_eq (V m c main_v0) (V m c main_v1) (V m c main_v2) (V m c main_v3)
    (iblk m c 0 ⟨t.val - 1, hlt⟩) (iblk m c 1 ⟨t.val - 1, hlt⟩) (iblk m c 2 ⟨t.val - 1, hlt⟩) (iblk m c 3 ⟨t.val - 1, hlt⟩)
    (iblk m c 0 t) (iblk m c 1 t) (iblk m c 2 t) (iblk m c 3 t) (gOf t) (qOf t)
    (fun r d => by rw [read0 m c ⟨t.val - 1, hlt⟩ r d, eg, eq])
    (fun cc d => by rw [read1 m c ⟨t.val - 1, hlt⟩ cc d, eg, ek'])
    (fun j d => by rw [read2 m c ⟨t.val - 1, hlt⟩ j d, eg, ek'])
    (fun r cc => by rw [read3 m c ⟨t.val - 1, hlt⟩ r cc, eg, eq, ek'])
    (fun r d => read0 m c t r d)
    (fun cc d => by rw [read1 m c t cc d, ek])
    (fun j d => by rw [read2 m c t j d, ek])
    (fun r cc => by rw [read3 m c t r cc, ek])
    0 r d

/-- An index of the output array is in point t's block iff each coordinate is in the block's range on its axis. -/
theorem mem_blk5 (t : Fin cfg0.N) (i : S64x1024x128.Idx) :
    i ∈ ((cfg0.win 5).blk t).view.set ↔ ∀ a : Fin 3, win0_5.index t a * S1x512x128.size a ≤ (i a).val
      ∧ (i a).val < win0_5.index t a * S1x512x128.size a + S1x512x128.size a := by
  show i ∈ ((View.whole main_v4_1).slice (win0_5.rect t)).set ↔ _
  rw [View.set_slice_whole, Rect.mem_set_unit]
  exact Iff.rfl

/-- Every entry (g, R, d) of the output array is in the block written back at point 4 g + 2 (R / 512) + 1. -/
theorem cover5 (i : S64x1024x128.Idx) :
    ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 128 := (i 2).isLt
  have hN : cfg0.N = 256 := N_0
  refine ⟨⟨4 * (i 0).val + 2 * ((i 1).val / 512) + 1, by omega⟩, (flush0_5 _).mpr (by show (4 * (i 0).val + 2 * ((i 1).val / 512) + 1) % 2 = 1; omega), ?_⟩
  rw [mem_blk5]
  obtain ⟨-, -, -, -, -, ⟨e0, e1, e2⟩⟩ := idx_facts ⟨4 * (i 0).val + 2 * ((i 1).val / 512) + 1, by omega⟩
  dsimp only at e0 e1 e2
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 512 ≤ (i 1).val ∧ (i 1).val < win0_5.index _ (1 : Fin 3) * 512 + 512
    omega
  | ⟨2, _⟩ =>
    show win0_5.index _ (2 : Fin 3) * 128 ≤ (i 2).val ∧ (i 2).val < win0_5.index _ (2 : Fin 3) * 128 + 128
    omega

/-- After the run the output array is the specification's product of the scores with the values. -/
theorem final5 (c : Dev nD) : (dats m 0 c).arrAt 5 cfg0.N = O3 m c :=
  (dats m 0 c).arrAt_eq_of_cover 5 (O3 m c) (fun t hf => flushed5 m c t hf) cover5

end Cert.Attn.Blocks

end
-- ==== Proof.LibMergeLead.lean ====
/-
  Re-shapes that merge or split the two leading axes, read at an index given by coordinates.

  A re-shape keeps the row-major position of every element. For extents [a, b, c, d] the position of (i, j, r, e) is
  ((i * b + j) * c + r) * d + e, and for extents [n, c, d] the position of (g, r, e) is (g * c + r) * d + e: the two are
  the same number exactly when g = i * b + j. So a four-axis array re-shaped to three axes by merging its two leading
  axes reads, at (g, r, e), the operand at (i, j, r, e) (`shapeCast_merge_lead_apply`), and a three-axis array re-shaped
  to four axes by splitting its leading axis reads, at (i, j, r, e), the operand at (g, r, e)
  (`shapeCast_split_lead_apply`), in both cases for g = i * b + j. The special case b = 1 of the first, with the unit
  coordinate written 0 and g = i, is a unit second axis dropped (`shapeCast_drop_second_unit_apply`).

  The extents and the element type are arbitrary; that the two shapes have the same number of elements is the
  hypothesis the re-shape itself carries.
-/
import Idealize.ShloMosaic.Lib.Pipeline.Value
import Idealize.ShloMosaic.Lib.ValueIdx

namespace Cert.Attn.MergeLead

open Idealize.ShloMosaic Idealize.ShloMosaic.ValueIdx

/-- An `[a, b, c, d]` array re-shaped to `[n, c, d]` (the two leading axes merged into one) reads, at `(g, r, e)`,
    the operand at `(i, j, r, e)`, where `g = i * b + j`: both indices have row-major position
    `((i * b + j) * c + r) * d + e`. -/
theorem shapeCast_merge_lead_apply {a b c d n : ℕ} {α : Type} (x : (⟨4, ![a, b, c, d]⟩ : Shape).Idx → α)
    (h : (⟨4, ![a, b, c, d]⟩ : Shape).ShapeCasts ⟨3, ![n, c, d]⟩) (g : Fin n) (i : Fin a) (j : Fin b) (r : Fin c) (e : Fin d)
    (hg : g.val = i.val * b + j.val) : shapeCast ⟨3, ![n, c, d]⟩ x h (ix3 g r e) = x (ix4 i j r e) :=
  shapeCast_apply x h _ _ (by
    rw [Shape.rowMajor_val_four, Shape.rowMajor_val_three]
    show ((i.val * b + j.val) * c + r.val) * d + e.val = (g.val * c + r.val) * d + e.val
    rw [hg])

/-- An `[n, c, d]` array re-shaped to `[a, b, c, d]` (the leading axis split in two) reads, at `(i, j, r, e)`, the
    operand at `(g, r, e)`, where `g = i * b + j`: the converse reading of `shapeCast_merge_lead_apply`. -/
theorem shapeCast_split_lead_apply {a b c d n : ℕ} {α : Type} (x : (⟨3, ![n, c, d]⟩ : Shape).Idx → α)
    (h : (⟨3, ![n, c, d]⟩ : Shape).ShapeCasts ⟨4, ![a, b, c, d]⟩) (g : Fin n) (i : Fin a) (j : Fin b) (r : Fin c) (e : Fin d)
    (hg : g.val = i.val * b + j.val) : shapeCast ⟨4, ![a, b, c, d]⟩ x h (ix4 i j r e) = x (ix3 g r e) :=
  shapeCast_apply x h _ _ (by
    rw [Shape.rowMajor_val_three, Shape.rowMajor_val_four]
    show (g.val * c + r.val) * d + e.val = ((i.val * b + j.val) * c + r.val) * d + e.val
    rw [hg])

/-- An `[a, 1, c, d]` array re-shaped to `[a, c, d]` (the unit second axis dropped) reads, at `(i, r, e)`, the operand
    at `(i, 0, r, e)`: the position `((i * 1 + 0) * c + r) * d + e` is `(i * c + r) * d + e`. -/
theorem shapeCast_drop_second_unit_apply {a c d : ℕ} {α : Type} (x : (⟨4, ![a, 1, c, d]⟩ : Shape).Idx → α)
    (h : (⟨4, ![a, 1, c, d]⟩ : Shape).ShapeCasts ⟨3, ![a, c, d]⟩) (i : Fin a) (r : Fin c) (e : Fin d) :
    shapeCast ⟨3, ![a, c, d]⟩ x h (ix3 i r e) = x (ix4 i (0 : Fin 1) r e) :=
  shapeCast_apply x h _ _ (by
    rw [Shape.rowMajor_val_four, Shape.rowMajor_val_three]
    show ((i.val * 1 + 0) * c + r.val) * d + e.val = (i.val * c + r.val) * d + e.val
    rw [Nat.mul_one, Nat.add_zero])

end Cert.Attn.MergeLead
-- ==== Proof.Reshape.lean ====
/-
  The three-axis form of the specification against its four-axis form.

  The kernel works on arrays whose batch and head axes are merged into one axis of 64 (merged index g = 16 * b + h, the
  row-major rule) and on a mask without its unit head axis, and re-shapes its two results back to four axes. A re-shape
  keeps row-major positions, so the re-shaped query at (g, r, d) is the query at (b, h, r, d), the re-shaped mask at
  (b, r, c) is the mask at (b, 0, r, c), and a three-axis result re-shaped back reads at (b, h, r, c) its entry (g, r, c).
  The three-axis scores read the mask at batch g / 16, which is b. Entry by entry the three-axis specification of the
  re-shaped arguments, re-shaped back, is therefore the four-axis specification: for the scores, and for the product of
  scores and values.
-/
import proofs.«162253_j36386962932539_1_alg».proof.Proof.Spec
import proofs.«162253_j36386962932539_1_alg».proof.Proof.LibMergeLead
import Idealize.ShloMosaic.Lib.Pipeline.Value

noncomputable section

open scoped BigOperators

namespace Cert.Attn.Reshape

open Idealize.ShloMosaic Idealize.ShloMosaic.ValueIdx Cert.Attn Cert.Attn.MergeLead

/-- The merged index of batch b and head h, sixteen heads per batch, belongs to batch b: (b * 16 + h) / 16 = b
    for h below 16. -/
theorem batchOf_merge (g : Fin 64) (b : Fin 4) (h : Fin 16) (hg : g.val = b.val * 16 + h.val) : batchOf g = b :=
  Fin.ext (by show g.val / 16 = b.val; omega)

/-- The three-axis scores of the re-shaped arguments, re-shaped back to four axes, are the four-axis scores: entry
    (b, h, r, c) of the left side is entry (g, r, c) of the three-axis scores for g = b * 16 + h, whose query, key and
    mask entries are the four-axis arrays' at (b, h, r, d), (b, h, c, d) and (b, 0, r, c). -/
theorem scores_merge
    (q k : (⟨4, ![4, 16, 1024, 128]⟩ : Shape).Idx → EReal) (mask : (⟨4, ![4, 1, 1024, 1024]⟩ : Shape).Idx → BitVec 32)
    (hq : (⟨4, ![4, 16, 1024, 128]⟩ : Shape).ShapeCasts ⟨3, ![64, 1024, 128]⟩)
    (hm : (⟨4, ![4, 1, 1024, 1024]⟩ : Shape).ShapeCasts ⟨3, ![4, 1024, 1024]⟩)
    (ho : (⟨3, ![64, 1024, 1024]⟩ : Shape).ShapeCasts ⟨4, ![4, 16, 1024, 1024]⟩) :
    shapeCast ⟨4, ![4, 16, 1024, 1024]⟩
        (scores3 (shapeCast ⟨3, ![64, 1024, 128]⟩ q hq) (shapeCast ⟨3, ![64, 1024, 128]⟩ k hq) (shapeCast ⟨3, ![4, 1024, 1024]⟩ mask hm)) ho
      = scores q k mask := by
  funext i
  obtain ⟨b, h, r, c, rfl⟩ : ∃ (b : Fin 4) (h : Fin 16) (r : Fin 1024) (c : Fin 1024), i = ix4 b h r c :=
    ⟨i 0, i 1, i 2, i 3, eq_ix4 i⟩
  obtain ⟨g, hg⟩ : ∃ g : Fin 64, g.val = b.val * 16 + h.val := ⟨⟨b.val * 16 + h.val, by omega⟩, rfl⟩
  rw [shapeCast_split_lead_apply _ ho g b h r c hg]
  show clipMask (shapeCast ⟨3, ![4, 1024, 1024]⟩ mask hm (ix3 (batchOf g) r c))
        ((∑ d : Fin 128, shapeCast ⟨3, ![64, 1024, 128]⟩ q hq (ix3 g r d) * shapeCast ⟨3, ![64, 1024, 128]⟩ k hq (ix3 g c d))
          * ((invTemp : ℝ) : EReal))
      = clipMask (mask (ix4 b (0 : Fin 1) r c))
        ((∑ d : Fin 128, q (ix4 b h r d) * k (ix4 b h c d)) * ((invTemp : ℝ) : EReal))
  rw [batchOf_merge g b h hg, shapeCast_drop_second_unit_apply mask hm b r c]
  refine congrArg (fun s : EReal => clipMask (mask (ix4 b (0 : Fin 1) r c)) (s * ((invTemp : ℝ) : EReal)))
    (Finset.sum_congr rfl fun d _ => ?_)
  rw [shapeCast_merge_lead_apply q hq g b h r d hg, shapeCast_merge_lead_apply k hq g b h c d hg]

/-- The three-axis product of scores and re-shaped values, re-shaped back to four axes, is the four-axis product of
    the re-shaped scores and the values: entry (b, h, r, e) of either side is the sum over the key positions j of the
    score at (g, r, j) times the value at (b, h, j, e), g = b * 16 + h. -/
theorem weighted_merge
    (a3 : (⟨3, ![64, 1024, 1024]⟩ : Shape).Idx → EReal) (v : (⟨4, ![4, 16, 1024, 128]⟩ : Shape).Idx → EReal)
    (hq : (⟨4, ![4, 16, 1024, 128]⟩ : Shape).ShapeCasts ⟨3, ![64, 1024, 128]⟩)
    (ho : (⟨3, ![64, 1024, 1024]⟩ : Shape).ShapeCasts ⟨4, ![4, 16, 1024, 1024]⟩)
    (ho' : (⟨3, ![64, 1024, 128]⟩ : Shape).ShapeCasts ⟨4, ![4, 16, 1024, 128]⟩) :
    shapeCast ⟨4, ![4, 16, 1024, 128]⟩ (weighted3 a3 (shapeCast ⟨3, ![64, 1024, 128]⟩ v hq)) ho'
      = weighted (shapeCast ⟨4, ![4, 16, 1024, 1024]⟩ a3 ho) v := by
  funext i
  obtain ⟨b, h, r, e, rfl⟩ : ∃ (b : Fin 4) (h : Fin 16) (r : Fin 1024) (e : Fin 128), i = ix4 b h r e :=
    ⟨i 0, i 1, i 2, i 3, eq_ix4 i⟩
  obtain ⟨g, hg⟩ : ∃ g : Fin 64, g.val = b.val * 16 + h.val := ⟨⟨b.val * 16 + h.val, by omega⟩, rfl⟩
  rw [shapeCast_split_lead_apply _ ho' g b h r e hg]
  show (∑ j : Fin 1024, a3 (ix3 g r j) * shapeCast ⟨3, ![64, 1024, 128]⟩ v hq (ix3 g j e))
      = ∑ j : Fin 1024, shapeCast ⟨4, ![4, 16, 1024, 1024]⟩ a3 ho (ix4 b h r j) * v (ix4 b h j e)
  refine Finset.sum_congr rfl fun j _ => ?_
  rw [shapeCast_merge_lead_apply v hq g b h j e hg, shapeCast_split_lead_apply a3 ho g b h r j hg]

end Cert.Attn.Reshape

end
-- ==== Proof.KernelRun.lean ====
/-
  The kernel's run, read. Before the region the host re-shapes the four arguments to their three-axis forms; after it,
  the host re-shapes the region's two arrays back to four axes. So each result of the program is the re-shape of the
  specification's three-axis array of the re-shaped arguments, which is the specification's four-axis array.
-/
import proofs.«162253_j36386962932539_1_alg».proof.Proof.Blocks
import proofs.«162253_j36386962932539_1_alg».proof.Proof.Reshape
import Idealize.ShloMosaic.Lib.StableHlo.Run

noncomputable section

namespace Cert.Attn.KernelRun

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Attn Cert.Attn.Blocks

variable (m : (ℓ : Loc nD τ sig) → Buf (Elt Ideal) ℓ) (ρ : Dev nD → PrngReg)

/-! ## The host operations before the region -/

/-- The region's query array is the query argument with batch and head merged. -/
theorem in0 (c : Dev nD) : (V m c main_v0 : S64x1024x128.Idx → EReal)
    = shapeCast S64x1024x128 (m ((c : Thread nD τ).loc main_arg0)) shapeCasts_S4x16x1024x128_S64x1024x128 := by
  show StableHlo.after hostOps0 (fun b => m (c, b)) (Proc.devRef .tc main_v0) = _
  after_results
  rfl

/-- The region's key array is the key argument with batch and head merged. -/
theorem in1 (c : Dev nD) : (V m c main_v1 : S64x1024x128.Idx → EReal)
    = shapeCast S64x1024x128 (m ((c : Thread nD τ).loc main_arg1)) shapeCasts_S4x16x1024x128_S64x1024x128 := by
  show StableHlo.after hostOps0 (fun b => m (c, b)) (Proc.devRef .tc main_v1) = _
  after_results
  rfl

/-- The region's value array is the value argument with batch and head merged. -/
theorem in2 (c : Dev nD) : (V m c main_v2 : S64x1024x128.Idx → EReal)
    = shapeCast S64x1024x128 (m ((c : Thread nD τ).loc main_arg2)) shapeCasts_S4x16x1024x128_S64x1024x128 := by
  show StableHlo.after hostOps0 (fun b => m (c, b)) (Proc.devRef .tc main_v2) = _
  after_results
  rfl

/-- The region's mask array is the mask argument without its unit head axis. -/
theorem in3 (c : Dev nD) : (V m c main_v3 : S4x1024x1024.Idx → BitVec 32)
    = shapeCast S4x1024x1024 (m ((c : Thread nD τ).loc main_arg3)) shapeCasts_S4x1x1024x1024_S4x1024x1024 := by
  show StableHlo.after hostOps0 (fun b => m (c, b)) (Proc.devRef .tc main_v3) = _
  after_results
  rfl

/-! ## The host operations after the region -/

/-- The second result: the region's score array, re-shaped to four axes. -/
theorem tail_v6 (c : Dev nD) :
    Pipeline.afterTail₀ cfgs (dats m) 0 (V0 m) [hostOps1] c main_v6
      = shapeCast S4x16x1024x1024 (S3 m c) shapeCasts_S64x1024x1024_S4x16x1024x1024 := by
  have hw : Pipeline.withArrays (cfgs 0).spec c (V0 m c) (fun w => (dats m 0 c).arrAt w (cfgs 0).N) (Proc.devRef .tc main_v4_0)
      = S3 m c := (Pipeline.withArrays_arr spec0 launch0.win.arr_inj c _ _ 4).trans (final4 m c)
  unfold Pipeline.afterTail₀
  show StableHlo.after hostOps1 _ (Proc.devRef .tc main_v6) = _
  after_results
  rw [hw]
  rfl

/-- The first result: the region's output array, re-shaped to four axes. -/
theorem tail_v5 (c : Dev nD) :
    Pipeline.afterTail₀ cfgs (dats m) 0 (V0 m) [hostOps1] c main_v5
      = shapeCast S4x16x1024x128 (O3 m c) shapeCasts_S64x1024x128_S4x16x1024x128 := by
  have hw : Pipeline.withArrays (cfgs 0).spec c (V0 m c) (fun w => (dats m 0 c).arrAt w (cfgs 0).N) (Proc.devRef .tc main_v4_1)
      = O3 m c := (Pipeline.withArrays_arr spec0 launch0.win.arr_inj c _ _ 5).trans (final5 m c)
  unfold Pipeline.afterTail₀
  show StableHlo.after hostOps1 _ (Proc.devRef .tc main_v5) = _
  after_results
  rw [hw]
  rfl

/-! ## The two results as functions of the arguments -/

/-- The score result is the specification's scores of the arguments. -/
theorem v6_eq (c : Dev nD) :
    shapeCast S4x16x1024x1024 (S3 m c) shapeCasts_S64x1024x1024_S4x16x1024x1024
      = scores (m ((c : Thread nD τ).loc main_arg0)) (m ((c : Thread nD τ).loc main_arg1)) (m ((c : Thread nD τ).loc main_arg3)) := by
  unfold S3
  rw [in0, in1, in3]
  exact Reshape.scores_merge _ _ _ _ _ _

/-- The output result is the specification's product of those scores with the value argument. -/
theorem v5_eq (c : Dev nD) :
    shapeCast S4x16x1024x128 (O3 m c) shapeCasts_S64x1024x128_S4x16x1024x128
      = weighted (scores (m ((c : Thread nD τ).loc main_arg0)) (m ((c : Thread nD τ).loc main_arg1)) (m ((c : Thread nD τ).loc main_arg3)))
          (m ((c : Thread nD τ).loc main_arg2)) := by
  unfold O3
  rw [in2, Reshape.weighted_merge (S3 m c) _ shapeCasts_S4x16x1024x128_S64x1024x128 shapeCasts_S64x1024x1024_S4x16x1024x1024
    shapeCasts_S64x1024x128_S4x16x1024x128, v6_eq]

/-! ## The run -/

/-- Every weakly fair execution of the kernel's program terminates, without a fault, with its two results at the
    specification's product and scores of the arguments, and the arguments unchanged. -/
theorem run : θ_run defs (onTc (τ := τ) (main (F := Ideal))) ⟨m, fun _ => 0, ρ⟩ fun r => ∀ c : Dev nD,
      r.2.mem ((c.tc : Thread nD τ).loc main_v5)
        = weighted (scores (m ((c : Thread nD τ).loc main_arg0)) (m ((c : Thread nD τ).loc main_arg1)) (m ((c : Thread nD τ).loc main_arg3)))
            (m ((c : Thread nD τ).loc main_arg2))
      ∧ r.2.mem ((c.tc : Thread nD τ).loc main_v6)
        = scores (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans ((tail_v5 m c).trans (v5_eq m c)),
      ((h c).2 main_v6 (Pipeline.mem_restRefs_of main_v6 (by decide) (by decide))).trans ((tail_v6 m c).trans (v6_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.KernelRun

end
-- ==== Proof.RefValue.lean ====
/-
  The reference program's two results, identified with the specification.

  Read one operation at a time, the reference computes at entry (a, b, r, c) of its score array

    min 15 (max 0 (select (mask[a, 0, r, c] = 0) fill (∑ d, (q[a, b, r, d] / T) * k[a, b, c, d])))

  with T the number the divisor's word denotes, and at entry (a, b, r, d) of its second result the sum over the key
  positions j of score[a, b, r, j] * v[a, b, j, d]. The specification has the same clamp, select and outer sum; the only
  difference is where the temperature enters: the specification multiplies the finished inner product by 1 / T. When
  the entries of q and k are real numbers the two agree (the law `scaled_dot` of the specification: distributivity in ℝ).

  So the proof has three parts: (1) the divisor's word denotes T = 11863283 / 2^20; (2) the index functions that the
  reading of a contraction and of a broadcast composes are, on an index given by its coordinates, again an index given by
  coordinates; (3) entry by entry, the chain of readings ends in the specification's expression.
-/
import proofs.«162253_j36386962932539_1_alg».proof.Proof.Spec
import proofs.«162253_j36386962932539_1_alg».proof.Proof.Gen.ReferenceIdeal.Read
import Idealize.ShloMosaic.Lib.ValueIdx

noncomputable section

open scoped BigOperators

namespace Cert.Attn.Ref

open Idealize.ShloMosaic Idealize.ShloMosaic.ValueIdx Cert.ReferenceIdeal Cert.ReferenceIdeal.Read

/-! ## The divisor -/

/-- The divisor's word: sign 0, exponent field 130, fraction field 3474675, so (2^23 + 3474675) * 2^(130 - 127 - 23)
    = 11863283 / 2^20, the temperature. -/
theorem ofBits_temp : Ideal.ofBits .f32 0x413504F3#32 = ((Cert.Attn.temp : ℝ) : EReal) := by
  simp [Ideal.ofBits, Ideal.ieee, -EReal.coe_mul]; norm_num

/-! ## The composed index functions on an index given by coordinates -/

/-- The left operand of the first contraction is read at row (a, b, r), feature d. -/
theorem lidx_v2 (a : Fin 4) (b : Fin 16) (r c : Fin 1024) (d : Fin 128) :
    lidx_main_v2 (ix4 a b r c) d = ix4 a b r d :=
  funext fun x => Fin.ext (by match x with | ⟨0, _⟩ => rfl | ⟨1, _⟩ => rfl | ⟨2, _⟩ => rfl | ⟨3, _⟩ => rfl)

/-- The right operand of the first contraction is read at row (a, b, c), feature d. -/
theorem ridx_v2 (a : Fin 4) (b : Fin 16) (r c : Fin 1024) (d : Fin 128) :
    ridx_main_v2 (ix4 a b r c) d = ix4 a b c d :=
  funext fun x => Fin.ext (by match x with | ⟨0, _⟩ => rfl | ⟨1, _⟩ => rfl | ⟨2, _⟩ => rfl | ⟨3, _⟩ => rfl)

/-- The mask, which has one head, is read at (a, 0, r, c). -/
theorem idx_call0 (a : Fin 4) (b : Fin 16) (r c : Fin 1024) :
    idx_main_call0_v0 (ix4 a b r c) = ix4 a (0 : Fin 1) r c :=
  funext fun x => Fin.ext (by match x with | ⟨0, _⟩ => rfl | ⟨1, _⟩ => rfl | ⟨2, _⟩ => rfl | ⟨3, _⟩ => rfl)

/-- The left operand of the second contraction is read at row (a, b, r), key position j. -/
theorem lidx_v7 (a : Fin 4) (b : Fin 16) (r : Fin 1024) (d : Fin 128) (j : Fin 1024) :
    lidx_main_v7 (ix4 a b r d) j = ix4 a b r j :=
  funext fun x => Fin.ext (by match x with | ⟨0, _⟩ => rfl | ⟨1, _⟩ => rfl | ⟨2, _⟩ => rfl | ⟨3, _⟩ => rfl)

/-- The right operand of the second contraction is read at key position j, feature d. -/
theorem ridx_v7 (a : Fin 4) (b : Fin 16) (r : Fin 1024) (d : Fin 128) (j : Fin 1024) :
    ridx_main_v7 (ix4 a b r d) j = ix4 a b j d :=
  funext fun x => Fin.ext (by match x with | ⟨0, _⟩ => rfl | ⟨1, _⟩ => rfl | ⟨2, _⟩ => rfl | ⟨3, _⟩ => rfl)

/-! ## The stages at an entry -/

/-- The divided query: every entry is the query's entry divided by the temperature. -/
theorem v1_at (q : (⟨S4x16x1024x128, .f32⟩ : BufTy).Contents (Elt Ideal)) (j : S4x16x1024x128.Idx) :
    val_main_v1 (F := Ideal) q j = Ideal.div (q j) ((Cert.Attn.temp : ℝ) : EReal) := by
  rw [val_main_v1_apply, val_main_v0_apply, val_main_cst_apply, Ideal.hostDivf_def, Ideal.ofBits_def, ofBits_temp]

/-- The clamped, masked score at an entry, in terms of the raw score there: the clamp and the select are the
    specification's, word for word. -/
theorem v6_at (q k : (⟨S4x16x1024x128, .f32⟩ : BufTy).Contents (Elt Ideal)) (mask : (⟨S4x1x1024x1024, .i32⟩ : BufTy).Contents (Elt Ideal))
    (i : S4x16x1024x1024.Idx) :
    val_main_v6 (F := Ideal) q k mask i
      = Cert.Attn.clipMask (mask (idx_main_call0_v0 i)) (val_main_v2 (F := Ideal) q k i) := by
  rw [val_main_v6_apply, val_main_call1_v4_apply, val_main_call1_v2_apply, val_main_call1_v1_apply, val_main_v5_apply,
    val_main_call0_v0_apply, val_main_call0_v1_apply, val_main_v4_apply, val_main_v3_apply]
  rfl

/-- The raw score at (a, b, r, c): the inner product of the divided query row with the key row is the inner product
    of the rows times the reciprocal of the temperature, the entries being real numbers. -/
theorem v2_at (q k : (⟨S4x16x1024x128, .f32⟩ : BufTy).Contents (Elt Ideal))
    (hq : ∀ i, ∃ r : ℝ, q i = ((r : ℝ) : EReal)) (hk : ∀ i, ∃ r : ℝ, k i = ((r : ℝ) : EReal))
    (a : Fin 4) (b : Fin 16) (r c : Fin 1024) :
    val_main_v2 (F := Ideal) q k (ix4 a b r c)
      = (∑ d : Fin 128, q (ix4 a b r d) * k (ix4 a b c d)) * ((Cert.Attn.invTemp : ℝ) : EReal) := by
  choose qa hqa using fun d : Fin 128 => hq (ix4 a b r d)
  choose ka hka using fun d : Fin 128 => hk (ix4 a b c d)
  rw [val_main_v2_apply]
  have e : ∀ d : Fin 128, val_main_v1 (F := Ideal) q (lidx_main_v2 (ix4 a b r c) d) * k (ridx_main_v2 (ix4 a b r c) d)
      = Ideal.div ((qa d : ℝ) : EReal) ((Cert.Attn.temp : ℝ) : EReal) * ((ka d : ℝ) : EReal) := fun d => by
    rw [lidx_v2, ridx_v2, v1_at, hqa, hka]
  have e' : ∀ d : Fin 128, q (ix4 a b r d) * k (ix4 a b c d) = ((qa d : ℝ) : EReal) * ((ka d : ℝ) : EReal) := fun d => by
    rw [hqa, hka]
  rw [Finset.sum_congr rfl fun d _ => e d, Finset.sum_congr rfl fun d _ => e' d]
  exact Cert.Attn.scaled_dot qa ka

/-! ## The two results -/

/-- The reference's score array is the specification's. -/
theorem ref_scores (q k : (⟨S4x16x1024x128, .f32⟩ : BufTy).Contents (Elt Ideal)) (mask : (⟨S4x1x1024x1024, .i32⟩ : BufTy).Contents (Elt Ideal))
    (hq : ∀ i, ∃ r : ℝ, q i = ((r : ℝ) : EReal)) (hk : ∀ i, ∃ r : ℝ, k i = ((r : ℝ) : EReal)) :
    Cert.ReferenceIdeal.Read.val_main_v6 (F := Ideal) q k mask = Cert.Attn.scores q k mask := by
  funext i
  obtain ⟨a, b, r, c, rfl⟩ : ∃ (a : Fin 4) (b : Fin 16) (r : Fin 1024) (c : Fin 1024), i = ix4 a b r c :=
    ⟨i 0, i 1, i 2, i 3, eq_ix4 i⟩
  rw [v6_at, v2_at q k hq hk, idx_call0]
  rfl

/-- The reference's second result is the specification's product of the scores with the values. -/
theorem ref_weighted (q k v : (⟨S4x16x1024x128, .f32⟩ : BufTy).Contents (Elt Ideal)) (mask : (⟨S4x1x1024x1024, .i32⟩ : BufTy).Contents (Elt Ideal))
    (hq : ∀ i, ∃ r : ℝ, q i = ((r : ℝ) : EReal)) (hk : ∀ i, ∃ r : ℝ, k i = ((r : ℝ) : EReal)) :
    Cert.ReferenceIdeal.Read.val_main_v7 (F := Ideal) q k v mask = Cert.Attn.weighted (Cert.Attn.scores q k mask) v := by
  funext i
  obtain ⟨a, b, r, d, rfl⟩ : ∃ (a : Fin 4) (b : Fin 16) (r : Fin 1024) (d : Fin 128), i = ix4 a b r d :=
    ⟨i 0, i 1, i 2, i 3, eq_ix4 i⟩
  rw [val_main_v7_apply, ref_scores q k mask hq hk]
  refine Finset.sum_congr rfl fun j _ => ?_
  rw [lidx_v7, ridx_v7]

end Cert.Attn.Ref

end
-- ==== Proof.Finite.lean ====
/-
  Finiteness of the float arguments, read back from the precondition. The precondition is a conjunction of three
  statements "every entry x of the array satisfies |x| < +∞", each printed as a reduction by "and" over all entries of the
  one-bit comparison, from the initial bit 1. On the extended reals |x| is max x (-x), the word 0x7F800000 denotes ⊤, and
  max x (-x) < ⊤ fails exactly at x = ⊥ and x = ⊤ (in both cases the maximum is ⊤): so each entry is a real number.
-/
import proofs.«162253_j36386962932539_1_alg».proof.Defs
import Idealize.ShloMosaic.Lib.ReduceAll
import Idealize.ShloMosaic.Lib.ValueIdx

noncomputable section

namespace Cert.Attn.Finite

open Idealize.ShloMosaic

/-- The scalar shape has exactly one index (the empty function). -/
instance subsingleton_scalar_idx : Subsingleton Cert.Pre_finite_inputs.S_.Idx :=
  ⟨fun _ _ => funext fun d => d.elim0⟩

/-- The single-precision word of +∞ denotes the top element. -/
theorem ofBits_inf : Ideal.ofBits .f32 0x7F800000#32 = (⊤ : EReal) := by
  simp [Ideal.ofBits, Ideal.ieee]

/-- If the comparison |x| < +∞ comes out true then x is a real number: at ⊥ and at ⊤ the absolute value max x (-x)
    is ⊤, which is not below ⊤. -/
theorem real_of_abs_lt_inf (x : EReal)
    (h : Ideal.cmp .olt (max x (-x)) (Ideal.ofBits .f32 0x7F800000#32) = 1#1) : ∃ r : ℝ, x = ((r : ℝ) : EReal) := by
  rw [ofBits_inf] at h
  induction x using EReal.rec with
  | bot => exact absurd h (by simp [Ideal.cmp])
  | coe r => exact ⟨r, rfl⟩
  | top => exact absurd h (by simp [Ideal.cmp])

/-- The precondition gives, for each of the three float arguments, that every entry is a real number. -/
theorem real_of_pre [Cert.Pre_finite_inputs.Facts] (x0 x1 x2 : FVec Ideal Cert.Pre_finite_inputs.S4x16x1024x128 .f32) (x3 : IVec Cert.Pre_finite_inputs.S4x1x1024x1024 32)
    (h : Cert.Pre_finite_inputs.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.Attn.Finite

end
-- ==== Proof.lean ====
/- The proof of `Cert.Claim` for a clamped-score attention kernel against its reference.

   Both programs compute, from queries, keys and values [4, 16, 1024, 128] and a mask [4, 1, 1024, 1024], the scores
   min 15 (max 0 (mask = 0 ? fill : ⟨query row, key row⟩ / T)) and the product of the scores with the values. The kernel
   merges batch and head, walks a grid of 64 rows × 2 query halves × 2 key halves, computes one 512 × 512 score tile per
   point, writes it back, and accumulates tile × value block over the two key halves before writing the output block
   back; it multiplies the finished inner product by a constant the certificate names as exactly 1 / T, T the reference's
   divisor. The reference divides the queries by T first and contracts whole arrays.

   On the extended reals the two agree when the queries and keys are finite: division by T is multiplication by 1 / T,
   and the factor moves across the inner product by distributivity of the reals (Proof/Spec.lean `scaled_dot`, the one
   place the precondition is used); the accumulation over key halves is associativity of a finite sum; changes of float
   format are the identity. The kernel's run is read off its frame (Proof/Pieces, Payload, Point, Blocks, KernelRun), the
   reference's off its run (Proof/RefValue), finiteness off the precondition (Proof/Finite), and both results are stated
   as the same functions of the arguments (Proof/Spec `scores`, `weighted`). -/
import proofs.«162253_j36386962932539_1_alg».proof.Defs
import proofs.«162253_j36386962932539_1_alg».proof.Proof.Gen.Kernel
import proofs.«162253_j36386962932539_1_alg».proof.Proof.Gen.Kernel.Frame
import proofs.«162253_j36386962932539_1_alg».proof.Proof.Gen.KernelIdeal
import proofs.«162253_j36386962932539_1_alg».proof.Proof.Gen.KernelIdeal.Frame
import proofs.«162253_j36386962932539_1_alg».proof.Proof.Gen.ReferenceIdeal
import proofs.«162253_j36386962932539_1_alg».proof.Proof.Gen.ReferenceIdeal.Run
import proofs.«162253_j36386962932539_1_alg».proof.Proof.Gen.ReferenceIdeal.Read
import proofs.«162253_j36386962932539_1_alg».proof.Proof.Gen.Pre_finite_inputs
import proofs.«162253_j36386962932539_1_alg».proof.Proof.KernelRun
import proofs.«162253_j36386962932539_1_alg».proof.Proof.RefValue
import proofs.«162253_j36386962932539_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's scale is named, and denotes the exact reciprocal of the
    reference's divisor, 1048576 / 11863283. -/
theorem preserves : Cert.preserves_Kernel_KernelIdeal :=
  IdealRules.named_const.statement Cert.KernelIdeal.κ "inv_temperature" .f32 0x3DB504F3#32 ((1048576 / 11863283 : ℝ) : EReal) rfl

/-- From memories that agree on the arguments, finite, both programs end with the specification's product and
    scores of the arguments. -/
theorem algebraic : Cert.algebraic_KernelIdeal_ReferenceIdeal := by
  intro m ρ m' ρ' hpre hagree
  refine ⟨_, _, Cert.Attn.KernelRun.run m ρ, ?_⟩
  refine (θ_run Cert.ReferenceIdeal.defs _ _).mono (fun _ h c => ?_) (Cert.ReferenceIdeal.Value.run (F := Ideal) m' ρ')
  obtain ⟨hq, hk, -⟩ := Cert.Attn.Finite.real_of_pre _ _ _ _ (hpre c)
  obtain ⟨e0, e1, e2, e3⟩ := hagree c
  refine ⟨(h c).1.trans ?_, (h c).2.1.trans ?_, (h c).2.2⟩
  · refine (Cert.ReferenceIdeal.Read.val_main_v7_eq _ _ _ _).trans ?_
    rw [e0, e1, e2, e3]
    exact Cert.Attn.Ref.ref_weighted _ _ _ _ hq hk
  · refine (Cert.ReferenceIdeal.Read.val_main_v6_eq _ _ _).trans ?_
    rw [e0, e1, e3]
    exact Cert.Attn.Ref.ref_scores _ _ _ hq hk

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
